-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg5 : FVec F S8x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1024 .f32 := Host.absf main_arg5
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  main_v23

def fn {F : FTy → Type} [FloatOps F] (main_arg0 : FVec F S16384x1024 .f32) (main_arg1 : IVec S8 32) (main_arg2 : FVec F S8x1024x4096 .f32) (main_arg3 : FVec F S8x4096 .f32) (main_arg4 : FVec F S8x4096x1024 .f32) (main_arg5 : FVec F S8x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S8x1024x4096 .f32 := Host.absf main_arg2
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096 .f32 := Host.absf main_arg3
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096x1024 .f32 := Host.absf main_arg4
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg5 main_v13 main_v16
-- ==== Kernel.lean ====
abbrev S16384x1024 : Shape := ⟨2, ![16384, 1024]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S8x2048x1024 : Shape := ⟨3, ![8, 2048, 1024]⟩
abbrev S8x1x4096 : Shape := ⟨3, ![8, 1, 4096]⟩
abbrev S8x1x1024 : Shape := ⟨3, ![8, 1, 1024]⟩
abbrev S1x1024x1024 : Shape := ⟨3, ![1, 1024, 1024]⟩
abbrev S1x1024x512 : Shape := ⟨3, ![1, 1024, 512]⟩
abbrev S1x1x512 : Shape := ⟨3, ![1, 1, 512]⟩
abbrev S1x512x1024 : Shape := ⟨3, ![1, 512, 1024]⟩
abbrev S1x1x1024 : Shape := ⟨3, ![1, 1, 1024]⟩
abbrev S1024x1024 : Shape := ⟨2, ![1024, 1024]⟩
abbrev S1024x512 : Shape := ⟨2, ![1024, 512]⟩
abbrev S1x512 : Shape := ⟨2, ![1, 512]⟩
abbrev S512x1024 : Shape := ⟨2, ![512, 1024]⟩
abbrev S1x1024 : Shape := ⟨2, ![1, 1024]⟩

abbrev nBuf : Space → Nat
  | .hbm => 14
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S8, .i32⟩
  | .hbm, ⟨2, _⟩ => ⟨S8x1024x4096, .f32⟩
  | .hbm, ⟨3, _⟩ => ⟨S8x4096, .f32⟩
  | .hbm, ⟨4, _⟩ => ⟨S8x4096x1024, .f32⟩
  | .hbm, ⟨5, _⟩ => ⟨S8x1024, .f32⟩
  | .hbm, ⟨6, _⟩ => ⟨S8x2048x1024, .f32⟩
  | .hbm, ⟨7, _⟩ => ⟨S8x2048x1024, .bf16⟩
  | .hbm, ⟨8, _⟩ => ⟨S8x1024x4096, .bf16⟩
  | .hbm, ⟨9, _⟩ => ⟨S8x4096x1024, .bf16⟩
  | .hbm, ⟨10, _⟩ => ⟨S8x1x4096, .f32⟩
  | .hbm, ⟨11, _⟩ => ⟨S8x1x1024, .f32⟩
  | .hbm, ⟨12, _⟩ => ⟨S8x2048x1024, .f32⟩
  | .hbm, ⟨13, _⟩ => ⟨S16384x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1x512, .f32⟩
  | .local _ .vmem, ⟨5, _⟩ => ⟨S1x1x512, .f32⟩
  | .local _ .vmem, ⟨6, _⟩ => ⟨S1x512x1024, .bf16⟩
  | .local _ .vmem, ⟨7, _⟩ => ⟨S1x512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v34 : BitVec 1 := Scalar.cmpi .eq arg2 c7_i32
  let v35 : BitVec 32 := Scalar.extui v34
  let c0_i32_21 : BitVec 32 := 0#32
  let v36 : BitVec 1 := Scalar.cmpi .ne v35 c0_i32_21
  v36

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S16384x1024_S8x2048x1024 : S16384x1024.ShapeCasts S8x2048x1024
  bitsLt_bf16_f32 : FTy.bits .bf16 < FTy.bits .f32
  shapeCasts_S8x4096_S8x1x4096 : S8x4096.ShapeCasts S8x1x4096
  shapeCasts_S8x1024_S8x1x1024 : S8x1024.ShapeCasts S8x1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  shapeCasts_S1024x1024_S1x1024x1024 : S1024x1024.ShapeCasts S1x1024x1024
  shapeCasts_S8x2048x1024_S16384x1024 : S8x2048x1024.ShapeCasts S16384x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .bf16 = 32 ∨ (Rect.block (s := S8x2048x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .bf16 = 32 ∨ (Rect.block (s := S8x1024x4096) S1x1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x4096x1024.size a
  hwx0_3 : ∀ i : grid0.Coords, EltTy.bits .bf16 = 32 ∨ (Rect.block (s := S8x4096x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x2048x1024.size a
  hwx0_5 : ∀ i : grid0.Coords, EltTy.bits .f32 = 32 ∨ (Rect.block (s := S8x2048x1024) S1x1024x1024.size (cc0_transform_5 i) (hinb0_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x1024 : Shape := ⟨2, ![16384, 1024]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S8x2048x1024 : Shape := ⟨3, ![8, 2048, 1024]⟩
abbrev S8x2048x4096 : Shape := ⟨3, ![8, 2048, 4096]⟩
abbrev S8x1x4096 : Shape := ⟨3, ![8, 1, 4096]⟩
abbrev S_ : Shape := ⟨0, ![]⟩
abbrev S8x1x1024 : Shape := ⟨3, ![8, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8, .i32⟩
  | .hbm, ⟨2, _⟩ => ⟨S8x1024x4096, .f32⟩
  | .hbm, ⟨3, _⟩ => ⟨S8x4096, .f32⟩
  | .hbm, ⟨4, _⟩ => ⟨S8x4096x1024, .f32⟩
  | .hbm, ⟨5, _⟩ => ⟨S8x1024, .f32⟩
  | .hbm, ⟨6, _⟩ => ⟨S8x2048x1024, .f32⟩
  | .hbm, ⟨7, _⟩ => ⟨S8x2048x4096, .f32⟩
  | .hbm, ⟨8, _⟩ => ⟨S8x1x4096, .f32⟩
  | .hbm, ⟨9, _⟩ => ⟨S8x2048x4096, .f32⟩
  | .hbm, ⟨10, _⟩ => ⟨S8x2048x4096, .f32⟩
  | .hbm, ⟨11, _⟩ => ⟨S8x2048x4096, .f32⟩
  | .hbm, ⟨12, _⟩ => ⟨S8x2048x4096, .f32⟩
  | .hbm, ⟨13, _⟩ => ⟨S_, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S_, .f32⟩
  | .hbm, ⟨18, _⟩ => ⟨S8x2048x4096, .f32⟩
  | .hbm, ⟨19, _⟩ => ⟨S8x2048x4096, .f32⟩
  | .hbm, ⟨20, _⟩ => ⟨S8x2048x4096, .f32⟩
  | .hbm, ⟨21, _⟩ => ⟨S_, .f32⟩
  | .hbm, ⟨22, _⟩ => ⟨S8x2048x4096, .f32⟩
  | .hbm, ⟨23, _⟩ => ⟨S8x2048x4096, .f32⟩
  | .hbm, ⟨24, _⟩ => ⟨S_, .f32⟩
  | .hbm, ⟨25, _⟩ => ⟨S8x2048x4096, .f32⟩
  | .hbm, ⟨26, _⟩ => ⟨S8x2048x4096, .f32⟩
  | .hbm, ⟨27, _⟩ => ⟨S8x2048x4096, .f32⟩
  | .hbm, ⟨28, _⟩ => ⟨S8x2048x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  shapeCasts_S16384x1024_S8x2048x1024 : S16384x1024.ShapeCasts S8x2048x1024
  bcast_S8x4096_S8x1x4096_0_2 : S8x4096.BroadcastsInDim S8x1x4096 (![0, 2] : Fin 2 → Fin S8x1x4096.rank)
  bcast_S8x1x4096_S8x2048x4096_0_1_2 : S8x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S8x1024_S8x1x1024_0_2 : S8x1024.BroadcastsInDim S8x1x1024 (![0, 2] : Fin 2 → Fin S8x1x1024.rank)
  bcast_S8x1x1024_S8x2048x1024_0_1_2 : S8x1x1024.BroadcastsInDim S8x2048x1024 (![0, 1, 2] : Fin 3 → Fin S8x2048x1024.rank)
  shapeCasts_S8x2048x1024_S16384x1024 : S8x2048x1024.ShapeCasts S16384x1024
  dot_S8x2048x1024_S8x1024x4096_S8x2048x4096_2_1_1_2_0_0_wf : DotDims.WF S8x2048x1024 S8x1024x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.LibBlocks.lean ====
/-
  A sum over rows grouped into equal consecutive blocks: summing each block and then the block sums is the sum
  over all rows, in any commutative monoid (no finiteness is involved: the regrouping of a finite sum).
-/
import Mathlib.Algebra.BigOperators.Fin
import Mathlib.Logic.Equiv.Fin.Basic
import Mathlib.Tactic

namespace Cert.LibBlocks

/-- Row `q` of block `t`, when `B` blocks of `T` rows make up `R` rows. -/
def blockRow {B T R : ℕ} (h : B * T = R) (t : Fin B) (q : Fin T) : Fin R :=
  ⟨t.val * T + q.val, by
    have ht := t.isLt
    have hq := q.isLt
    calc t.val * T + q.val < t.val * T + T := by omega
      _ = (t.val + 1) * T := by ring
      _ ≤ B * T := Nat.mul_le_mul_right T ht
      _ = R := h⟩

theorem blockRow_val {B T R : ℕ} (h : B * T = R) (t : Fin B) (q : Fin T) : (blockRow h t q).val = t.val * T + q.val := rfl

/-- The block sums add up to the whole sum. -/
theorem sum_blocks {M : Type*} [AddCommMonoid M] {B T R : ℕ} (h : B * T = R) (f : Fin R → M) :
    ∑ t : Fin B, ∑ q : Fin T, f (blockRow h t q) = ∑ r : Fin R, f r := by
  subst h
  rw [← Equiv.sum_comp finProdFinEquiv f, Fintype.sum_prod_type]
  refine Finset.sum_congr rfl fun t _ => Finset.sum_congr rfl fun q _ => ?_
  congr 1
  apply Fin.ext
  simp only [blockRow_val, finProdFinEquiv_apply_val]
  ring

end Cert.LibBlocks
-- ==== Proof.Spec.lean ====
/-
  The mathematics both programs compute, on the extended reals.  Tokens are grouped by expert: expert e owns rows
  e·2048 … e·2048 + 2047.  For token t of expert e the hidden unit f is u = Σ_k x(e,t,k)·w1(e,k,f) + b1(e,f), passed
  through the tanh-approximate GELU u·(½·(1 + tanh(c₂·(u + c₁·u³)))), and output column d is
  Σ_f gelu(u_f)·w2(e,f,d) + b2(e,d).  The hidden axis of 4096 units is the disjoint union of 8 consecutive tiles of 512:
  summing tile by tile is the same sum (a regrouping of a finite sum, no finiteness of the entries is involved).
-/
import Idealize.ShloMosaic.PureOps.Ideal
import Idealize.ShloMosaic.Lib.ValueIdx
import proofs.«142608_j50216757625283_2_alg».proof.Proof.LibBlocks

noncomputable section

namespace Cert.Spec

open Idealize.ShloMosaic Idealize.ShloMosaic.ValueIdx
open scoped BigOperators

/-- The tanh-approximate GELU on the extended reals, its four constants the binary floats both programs print. -/
def gelu (u : EReal) : EReal :=
  u * (Ideal.ofBits .f32 0x3F000000#32 * (Ideal.ofBits .f32 0x3F800000#32
    + Ideal.tanh (Ideal.ofBits .f32 0x3F4C422A#32 * (u + Ideal.ofBits .f32 0x3D372713#32 * (u * u * u)))))

/-- The cube may be bracketed either way. -/
theorem gelu_eq (u : EReal) :
    u * (Ideal.ofBits .f32 0x3F000000#32 * (Ideal.ofBits .f32 0x3F800000#32
      + Ideal.tanh (Ideal.ofBits .f32 0x3F4C422A#32 * (u + Ideal.ofBits .f32 0x3D372713#32 * (u * (u * u)))))) = gelu u := by
  unfold gelu
  rw [mul_assoc u u u]

abbrev SX3 : Shape := ⟨3, ![8, 2048, 1024]⟩
abbrev SW1 : Shape := ⟨3, ![8, 1024, 4096]⟩
abbrev SB1 : Shape := ⟨2, ![8, 4096]⟩
abbrev SW2 : Shape := ⟨3, ![8, 4096, 1024]⟩
abbrev SB2 : Shape := ⟨2, ![8, 1024]⟩

variable (X : SX3.Idx → EReal) (W1 : SW1.Idx → EReal) (B1 : SB1.Idx → EReal) (W2 : SW2.Idx → EReal) (B2 : SB2.Idx → EReal)

/-- Hidden unit f of token t of expert e, before the activation. -/
def pre (e : Fin 8) (t : Fin 2048) (f : Fin 4096) : EReal :=
  (∑ k : Fin 1024, X (ix3 e t k) * W1 (ix3 e k f)) + B1 (ix2 e f)

/-- Hidden unit f's contribution to output column d. -/
def term (e : Fin 8) (t : Fin 2048) (d : Fin 1024) (f : Fin 4096) : EReal :=
  gelu (pre X W1 B1 e t f) * W2 (ix3 e f d)

/-- The result, grouped by expert. -/
def G3 : SX3.Idx → EReal := fun j =>
  (∑ f : Fin 4096, term X W1 B1 W2 (j 0) (j 1) (j 2) f) + B2 (ix2 (j 0) (j 2))

/-- Hidden unit j of tile s. -/
abbrev tileCol (s : Fin 8) (j : Fin 512) : Fin 4096 := Cert.LibBlocks.blockRow (by norm_num : 8 * 512 = 4096) s j

theorem tileCol_val (s : Fin 8) (j : Fin 512) : (tileCol s j).val = s.val * 512 + j.val := rfl

/-- One tile's contribution to output column d. -/
def tileSum (e : Fin 8) (t : Fin 2048) (d : Fin 1024) (s : Fin 8) : EReal :=
  ∑ j : Fin 512, term X W1 B1 W2 e t d (tileCol s j)

/-- The result as the sum of the eight tiles' contributions, plus the bias. -/
theorem G3_tiles (e : Fin 8) (t : Fin 2048) (d : Fin 1024) :
    G3 X W1 B1 W2 B2 (ix3 e t d) = (∑ s : Fin 8, tileSum X W1 B1 W2 e t d s) + B2 (ix2 e d) := by
  unfold G3 tileSum
  show (∑ f : Fin 4096, term X W1 B1 W2 e t d f) + B2 (ix2 e d) = _
  rw [← Cert.LibBlocks.sum_blocks (by norm_num : 8 * 512 = 4096) (term X W1 B1 W2 e t d)]

end Cert.Spec

end
-- ==== Proof.RefSide.lean ====
/-
  The reference, read index by index: its result before the final re-grouping of rows is the specification's
  function of the re-grouped input and the four parameter arrays.  The first contraction reads token (e, t) against
  column f of expert e's first weight, the bias is broadcast over the tokens, the activation is the tanh-approximate
  GELU with the cube bracketed (u·u)·u, the second contraction runs over all 4096 hidden units.
-/
import proofs.«142608_j50216757625283_2_alg».proof.Proof.Gen.ReferenceIdeal.Read
import proofs.«142608_j50216757625283_2_alg».proof.Proof.Spec

noncomputable section

namespace Cert.ReferenceIdeal.RefValue

open Cert.ReferenceIdeal Cert.ReferenceIdeal.Read Idealize.ShloMosaic Idealize.ShloMosaic.ValueIdx
open scoped BigOperators

variable (x0 : (⟨S16384x1024, .f32⟩ : BufTy).Contents (Elt Ideal)) (x2 : (⟨S8x1024x4096, .f32⟩ : BufTy).Contents (Elt Ideal))
  (x3 : (⟨S8x4096, .f32⟩ : BufTy).Contents (Elt Ideal)) (x4 : (⟨S8x4096x1024, .f32⟩ : BufTy).Contents (Elt Ideal))
  (x5 : (⟨S8x1024, .f32⟩ : BufTy).Contents (Elt Ideal))

/-- The pre-activation of hidden unit f of token (e, t). -/
theorem pre_eq (e : Fin 8) (t : Fin 2048) (f : Fin 4096) :
    val_main_v4 (F := Ideal) x0 x2 x3 (ix3 e t f) = Cert.Spec.pre (val_main_v0 (F := Ideal) x0) x2 x3 e t f := by
  have hl (k : Fin 1024) : lidx_main_v1 (ix3 e t f) k = ix3 e t k :=
    funext fun a => Fin.ext (by match a with | ⟨0, _⟩ => rfl | ⟨1, _⟩ => rfl | ⟨2, _⟩ => rfl)
  have hr (k : Fin 1024) : ridx_main_v1 (ix3 e t f) k = ix3 e k f :=
    funext fun a => Fin.ext (by match a with | ⟨0, _⟩ => rfl | ⟨1, _⟩ => rfl | ⟨2, _⟩ => rfl)
  have hb : idx_main_v2 (idx_main_v3 (ix3 e t f)) = ix2 e f :=
    funext fun a => Fin.ext (by match a with | ⟨0, _⟩ => rfl | ⟨1, _⟩ => rfl)
  rw [val_main_v4_apply, val_main_v1_apply, val_main_v3_apply, val_main_v2_apply, hb]
  simp only [hl, hr]
  rfl

/-- The activated hidden unit. -/
theorem hidden_eq (e : Fin 8) (t : Fin 2048) (f : Fin 4096) :
    val_main_v17 (F := Ideal) x0 x2 x3 (ix3 e t f) = Cert.Spec.gelu (Cert.Spec.pre (val_main_v0 (F := Ideal) x0) x2 x3 e t f) := by
  rw [val_main_v17_apply, val_main_v16_apply, val_main_v15_apply, val_main_cst_2_apply, val_main_v14_apply, val_main_v13_apply,
    val_main_cst_1_apply, val_main_v12_apply, val_main_v11_apply, val_main_v10_apply, val_main_cst_0_apply, val_main_v9_apply,
    val_main_v8_apply, val_main_v7_apply, val_main_cst_apply, val_main_v6_apply, val_main_v5_apply, pre_eq]
  rfl

/-- The reference's result before the rows are re-grouped is the specification's function. -/
theorem v21_eq :
    val_main_v21 (F := Ideal) x0 x2 x3 x4 x5 = Cert.Spec.G3 (val_main_v0 (F := Ideal) x0) x2 x3 x4 x5 := by
  funext j
  obtain ⟨e, t, d, rfl⟩ : ∃ (e : Fin 8) (t : Fin 2048) (d : Fin 1024), j = ix3 e t d := ⟨j 0, j 1, j 2, eq_ix3 j⟩
  have hl (k : Fin 4096) : lidx_main_v18 (ix3 e t d) k = ix3 e t k :=
    funext fun a => Fin.ext (by match a with | ⟨0, _⟩ => rfl | ⟨1, _⟩ => rfl | ⟨2, _⟩ => rfl)
  have hr (k : Fin 4096) : ridx_main_v18 (ix3 e t d) k = ix3 e k d :=
    funext fun a => Fin.ext (by match a with | ⟨0, _⟩ => rfl | ⟨1, _⟩ => rfl | ⟨2, _⟩ => rfl)
  have hb : idx_main_v19 (idx_main_v20 (ix3 e t d)) = ix2 e d :=
    funext fun a => Fin.ext (by match a with | ⟨0, _⟩ => rfl | ⟨1, _⟩ => rfl)
  rw [val_main_v21_apply, val_main_v18_apply, val_main_v20_apply, val_main_v19_apply, hb]
  simp only [hl, hr, hidden_eq]
  rfl

/-- So the reference's result is that function with its rows re-grouped. -/
theorem v22_eq :
    val_main_v22 (F := Ideal) x0 x2 x3 x4 x5
      = shapeCast S16384x1024 (Cert.Spec.G3 (val_main_v0 (F := Ideal) x0) x2 x3 x4 x5) Facts₀.shapeCasts_S8x2048x1024_S16384x1024 := by
  unfold val_main_v22
  rw [v21_eq]

end Cert.ReferenceIdeal.RefValue

end
-- ==== Proof.Pieces.lean ====
/-
  What one grid step leaves behind, read as values.  The accumulator is a whole 1024×1024 buffer: the first step of a
  run over the hidden tiles stores zeros, reads them back and stores zeros plus this tile's product; every later step
  stores what it found plus this tile's product; the last step also reads the accumulator back, adds the output bias row
  and stores the sum as the output block.  Each buffer is read and written whole, so what a step leaves is the payload of
  its last store applied to the buffers' contents.
-/
import proofs.«142608_j50216757625283_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first step of a run: zeros, then zeros plus the tile's product. -/
theorem scratch_A (c : Dev nD) (i : grid0.Coords) (arg3 : Memref sig .tc .vmem S1x1024x1024 .bf16) (harg3 : arg3.IsWhole) (arg4 : Memref sig .tc .vmem S1x1024x512 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1024x1024 .f32) (harg9 : arg9.IsWhole) (hc0 : cond0_0 i) (hc1 : ¬cond0_1 i)
    (x0 : Vec F S1x1024x1024 .bf16) (x1 : Vec F S1x1024x512 .bf16) (x2 : Vec F S1x1x512 .f32) (x3 : Vec F S1x512x1024 .bf16) (x4 : Vec F S1x1x1024 .f32) :
    sout0_A_0 c i arg3 harg3 arg4 harg4 arg5 harg5 arg6 harg6 arg7 harg7 arg8 harg8 arg9 harg9 hc0 hc1 x0 x1 x2 x3 x4 = k0_pay1 (k0_pay4 x0 x1 x2 x3 (k0_pay3 (F := F))) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz2, View.readCov_unit_zero (S := S1024x1024) _ hz2]
  simp only [View.readAt_eq_ld, harg3.read_unread, harg4.read_unread, harg5.read_unread, harg6.read_unread, harg7.read_unread,
    harg9.read_unread, View.ld_unit_zero (S := S1x1024x1024) hz3, View.ld_unit_zero (S := S1x1024x512) hz3,
    View.ld_unit_zero (S := S1x1x512) hz3, View.ld_unit_zero (S := S1x512x1024) hz3, View.ld_unit_zero (S := S1x1x1024) hz3,
    View.ld_unit_zero (S := S1024x1024) hz2]

/-- A middle step: what the step before left, plus the tile's product. -/
theorem scratch_B (c : Dev nD) (i : grid0.Coords) (arg3 : Memref sig .tc .vmem S1x1024x1024 .bf16) (harg3 : arg3.IsWhole) (arg4 : Memref sig .tc .vmem S1x1024x512 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1024x1024 .f32) (harg9 : arg9.IsWhole) (hc0 : ¬cond0_0 i) (hc1 : ¬cond0_1 i)
    (x0 : Vec F S1x1024x1024 .bf16) (x1 : Vec F S1x1024x512 .bf16) (x2 : Vec F S1x1x512 .f32) (x3 : Vec F S1x512x1024 .bf16) (x4 : Vec F S1x1x1024 .f32) (xs0 : Vec F S1024x1024 .f32) :
    sout0_B_0 c i arg3 harg3 arg4 harg4 arg5 harg5 arg6 harg6 arg7 harg7 arg8 harg8 arg9 harg9 hc0 hc1 x0 x1 x2 x3 x4 xs0 = k0_pay1 (k0_pay4 x0 x1 x2 x3 xs0) := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero (S := S1024x1024) hz2]
  simp only [View.readAt_eq_ld, harg3.read_unread, harg4.read_unread, harg5.read_unread, harg6.read_unread, harg7.read_unread,
    harg9.read_unread, View.ld_unit_zero (S := S1x1024x1024) hz3, View.ld_unit_zero (S := S1x1024x512) hz3,
    View.ld_unit_zero (S := S1x1x512) hz3, View.ld_unit_zero (S := S1x512x1024) hz3, View.ld_unit_zero (S := S1x1x1024) hz3,
    View.ld_unit_zero (S := S1024x1024) hz2]

/-- The last step leaves the same in the accumulator, -/
theorem scratch_C (c : Dev nD) (i : grid0.Coords) (arg3 : Memref sig .tc .vmem S1x1024x1024 .bf16) (harg3 : arg3.IsWhole) (arg4 : Memref sig .tc .vmem S1x1024x512 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1024x1024 .f32) (harg9 : arg9.IsWhole) (hc0 : ¬cond0_0 i) (hc1 : cond0_1 i)
    (x0 : Vec F S1x1024x1024 .bf16) (x1 : Vec F S1x1024x512 .bf16) (x2 : Vec F S1x1x512 .f32) (x3 : Vec F S1x512x1024 .bf16) (x4 : Vec F S1x1x1024 .f32) (xs0 : Vec F S1024x1024 .f32) :
    sout0_C_0 c i arg3 harg3 arg4 harg4 arg5 harg5 arg6 harg6 arg7 harg7 arg8 harg8 arg9 harg9 hc0 hc1 x0 x1 x2 x3 x4 xs0 = k0_pay1 (k0_pay4 x0 x1 x2 x3 xs0) := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S1024x1024) hz2]
  simp only [View.readAt_eq_ld, harg3.read_unread, harg4.read_unread, harg5.read_unread, harg6.read_unread, harg7.read_unread,
    harg9.read_unread, View.ld_unit_zero (S := S1x1024x1024) hz3, View.ld_unit_zero (S := S1x1024x512) hz3,
    View.ld_unit_zero (S := S1x1x512) hz3, View.ld_unit_zero (S := S1x512x1024) hz3, View.ld_unit_zero (S := S1x1x1024) hz3,
    View.ld_unit_zero (S := S1024x1024) hz2]

/-- and in the output block that accumulator plus the bias row. -/
theorem out_C (c : Dev nD) (i : grid0.Coords) (arg3 : Memref sig .tc .vmem S1x1024x1024 .bf16) (harg3 : arg3.IsWhole) (arg4 : Memref sig .tc .vmem S1x1024x512 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1024x1024 .f32) (harg9 : arg9.IsWhole) (hc0 : ¬cond0_0 i) (hc1 : cond0_1 i)
    (x0 : Vec F S1x1024x1024 .bf16) (x1 : Vec F S1x1024x512 .bf16) (x2 : Vec F S1x1x512 .f32) (x3 : Vec F S1x512x1024 .bf16) (x4 : Vec F S1x1x1024 .f32) (xs0 : Vec F S1024x1024 .f32) :
    out0_C_5 c i arg3 harg3 arg4 harg4 arg5 harg5 arg6 harg6 arg7 harg7 arg8 harg8 arg9 harg9 hc0 hc1 x0 x1 x2 x3 x4 xs0 = k0_pay2 (k0_pay1 (k0_pay4 x0 x1 x2 x3 xs0)) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S1x1024x1024) hz3, View.readCov_unit_zero (S := S1024x1024) _ hz2]
  simp only [View.readAt_eq_ld, harg3.read_unread, harg4.read_unread, harg5.read_unread, harg6.read_unread, harg7.read_unread,
    harg9.read_unread, View.ld_unit_zero (S := S1x1024x1024) hz3, View.ld_unit_zero (S := S1x1024x512) hz3,
    View.ld_unit_zero (S := S1x1x512) hz3, View.ld_unit_zero (S := S1x512x1024) hz3, View.ld_unit_zero (S := S1x1x1024) hz3,
    View.ld_unit_zero (S := S1024x1024) hz2]

end Cert.KernelIdeal.Pieces

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.Payload.lean ====
/-
  The body's arithmetic at an entry, on the extended reals.  One grid step adds to entry (r, d) of the accumulator the
  product of this tile's activated hidden units of row r with column d of the tile's second-layer weights:
  Σ_j gelu(Σ_k x(r,k)·w1(k,j) + b1(j)) · w2(j,d), j over the tile's 512 units.  The two matrix products into a zero
  accumulator are plain sums; the casts to and from the 16-bit format are the identity on the extended reals; the blocks
  carry a leading unit axis that the body drops before it computes; the kernel brackets the cube u·(u·u).
-/
import proofs.«142608_j50216757625283_2_alg».proof.Proof.Gen.KernelIdeal.Skeleton
import proofs.«142608_j50216757625283_2_alg».proof.Proof.Spec
import proofs.«142608_j50216757625283_2_alg».proof.Proof.LibDot
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- The dimension numbers of the first product (row block × first-layer tile) and of the second (hidden tile × second-layer tile). -/
abbrev DA := dot_S1024x1024_S1024x512_S1024x512_1_0_0_1_n_n
abbrev DB := dot_S1024x512_S512x1024_S1024x1024_1_0_0_1_n_n

theorem DA_l0 (j : S1024x512.Idx) (q : DA.contr.Idx) : (DA.lhsIdx j q 0).val = (j 0).val := by
  unfold DotDims.lhsIdx
  rw [dif_neg (show ¬(0 : Fin S1024x1024.rank) ∈ DA.lhsBatch by decide), dif_pos (show (0 : Fin S1024x1024.rank) ∈ DA.lhsNonContracting by decide)]
  rfl
theorem DA_l1 (j : S1024x512.Idx) (q : DA.contr.Idx) : (DA.lhsIdx j q 1).val = (q ⟨0, by decide⟩).val :=
  DA.lhsIdx_val_of_single rfl j q
theorem DA_r0 (j : S1024x512.Idx) (q : DA.contr.Idx) : (DA.rhsIdx j q 0).val = (q ⟨0, by decide⟩).val :=
  DA.rhsIdx_val_of_single rfl j q
theorem DA_r1 (j : S1024x512.Idx) (q : DA.contr.Idx) : (DA.rhsIdx j q 1).val = (j 1).val := by
  unfold DotDims.rhsIdx
  rw [dif_neg (show ¬(1 : Fin S1024x512.rank) ∈ DA.rhsBatch by decide), dif_pos (show (1 : Fin S1024x512.rank) ∈ DA.rhsNonContracting by decide)]
  rfl

theorem DB_l0 (j : S1024x1024.Idx) (q : DB.contr.Idx) : (DB.lhsIdx j q 0).val = (j 0).val := by
  unfold DotDims.lhsIdx
  rw [dif_neg (show ¬(0 : Fin S1024x512.rank) ∈ DB.lhsBatch by decide), dif_pos (show (0 : Fin S1024x512.rank) ∈ DB.lhsNonContracting by decide)]
  rfl
theorem DB_l1 (j : S1024x1024.Idx) (q : DB.contr.Idx) : (DB.lhsIdx j q 1).val = (q ⟨0, by decide⟩).val :=
  DB.lhsIdx_val_of_single rfl j q
theorem DB_r0 (j : S1024x1024.Idx) (q : DB.contr.Idx) : (DB.rhsIdx j q 0).val = (q ⟨0, by decide⟩).val :=
  DB.rhsIdx_val_of_single rfl j q
theorem DB_r1 (j : S1024x1024.Idx) (q : DB.contr.Idx) : (DB.rhsIdx j q 1).val = (j 1).val := by
  unfold DotDims.rhsIdx
  rw [dif_neg (show ¬(1 : Fin S512x1024.rank) ∈ DB.rhsBatch by decide), dif_pos (show (1 : Fin S512x1024.rank) ∈ DB.rhsNonContracting by decide)]
  rfl

/-- Hidden unit j of row r of a block, before the activation. -/
def bpre (x0 : FVec Ideal S1x1024x1024 .bf16) (x1 : FVec Ideal S1x1024x512 .bf16) (x2 : FVec Ideal S1x1x512 .f32)
    (r : Fin 1024) (j : Fin 512) : EReal :=
  (∑ k : Fin 1024, x0 (ix3 (0 : Fin 1) r k) * x1 (ix3 (0 : Fin 1) k j)) + x2 (ix3 (0 : Fin 1) (0 : Fin 1) j)

/-- One tile's product at entry (r, d) of the accumulator. -/
def bsum (x0 : FVec Ideal S1x1024x1024 .bf16) (x1 : FVec Ideal S1x1024x512 .bf16) (x2 : FVec Ideal S1x1x512 .f32)
    (x3 : FVec Ideal S1x512x1024 .bf16) (r d : Fin 1024) : EReal :=
  ∑ j : Fin 512, Cert.Spec.gelu (bpre x0 x1 x2 r j) * x3 (ix3 (0 : Fin 1) j d)

/-- The activation as the body spells it, entry by entry, is the GELU of the entry. -/
theorem act_apply (U : FVec Ideal S1024x512 .f32) (i : S1024x512.Idx) :
    (truncf .bf16 (mulf U (mulf (broadcast S1024x512 (FloatOps.ofBits .f32 0x3F000000#32))
      (addf (broadcast S1024x512 (FloatOps.ofBits .f32 0x3F800000#32))
        (tanh (mulf (broadcast S1024x512 (FloatOps.ofBits .f32 0x3F4C422A#32))
          (addf U (mulf (broadcast S1024x512 (FloatOps.ofBits .f32 0x3D372713#32)) (mulf U (mulf U U))))))))) bitsLt_bf16_f32
      : FVec Ideal S1024x512 .bf16) i = Cert.Spec.gelu (U i) := by
  rw [← Cert.Spec.gelu_eq]
  rfl

/-- The pre-activation entry: the first product plus the bias row. -/
theorem pre_apply (x0 : FVec Ideal S1x1024x1024 .bf16) (x1 : FVec Ideal S1x1024x512 .bf16) (x2 : FVec Ideal S1x1x512 .f32)
    (r : Fin 1024) (j : Fin 512) :
    (addf (matmul DA none (shapeCast S1024x1024 x0 shapeCasts_S1x1024x1024_S1024x1024)
        (shapeCast S1024x512 x1 shapeCasts_S1x1024x512_S1024x512) (constant S1024x512 .f32 0x00000000#32))
      (broadcastTo S1024x512 (shapeCast S1x512 x2 shapeCasts_S1x1x512_S1x512) broadcasts_S1x512_S1024x512)
      : FVec Ideal S1024x512 .f32) (ix2 r j) = bpre x0 x1 x2 r j := by
  unfold bpre
  refine congrArg₂ (· + ·) ?_ ?_
  · refine (Cert.LibDot.matmul_zero_apply DA rfl rfl DA_l0 DA_l1 DA_r0 DA_r1 none _ _ r j).trans ?_
    refine Finset.sum_congr rfl fun k _ => ?_
    exact congrArg₂ (· * ·) (shapeCast_1ab_ab_apply x0 _ r k) (shapeCast_1ab_ab_apply x1 _ k j)
  · refine (broadcastTo_1b_ab_apply _ _ r j).trans ?_
    exact shapeCast_1ab_ab_apply x2 _ (0 : Fin 1) j

/-- The accumulating store's value at entry (r, d): what was there plus the tile's product. -/
theorem pay4_apply (x0 : FVec Ideal S1x1024x1024 .bf16) (x1 : FVec Ideal S1x1024x512 .bf16) (x2 : FVec Ideal S1x1x512 .f32)
    (x3 : FVec Ideal S1x512x1024 .bf16) (acc : FVec Ideal S1024x1024 .f32) (r d : Fin 1024) :
    k0_pay4 (F := Ideal) x0 x1 x2 x3 acc (ix2 r d) = acc (ix2 r d) + bsum x0 x1 x2 x3 r d := by
  unfold k0_pay4 bsum
  refine congrArg (acc (ix2 r d) + ·) ?_
  refine (Cert.LibDot.matmul_zero_apply DB rfl rfl DB_l0 DB_l1 DB_r0 DB_r1 none _ _ r d).trans ?_
  refine Finset.sum_congr rfl fun j _ => ?_
  exact congrArg₂ (· * ·) ((act_apply _ (ix2 r j)).trans (congrArg Cert.Spec.gelu (pre_apply x0 x1 x2 r j)))
    (shapeCast_1ab_ab_apply x3 _ j d)

/-- The cast of the accumulator to its own shape changes nothing. -/
theorem pay1_eq {F : FTy → Type} [FloatOps F] (v : FVec F S1024x1024 .f32) : k0_pay1 v = v := by
  unfold k0_pay1
  exact shapeCast_self v _

/-- The reset stores zeros. -/
theorem pay3_apply (i : S1024x1024.Idx) : k0_pay3 (F := Ideal) i = 0 := by
  unfold k0_pay3
  rw [shapeCast_self]
  exact Ideal.ofBits_zero_f32

/-- The output block's entry (r, d): the accumulator's plus the bias row's. -/
theorem pay2_apply (v37 : FVec Ideal S1024x1024 .f32) (v38 : FVec Ideal S1x1x1024 .f32) (r d : Fin 1024) :
    k0_pay2 (F := Ideal) v37 v38 (ix3 (0 : Fin 1) r d) = v37 (ix2 r d) + v38 (ix3 (0 : Fin 1) (0 : Fin 1) d) := by
  unfold k0_pay2
  refine (shapeCast_ab_1ab_apply _ _ (0 : Fin 1) r d).trans ?_
  refine congrArg (v37 (ix2 r d) + ·) ?_
  refine (broadcastTo_1b_ab_apply _ _ r d).trans ?_
  exact shapeCast_1ab_ab_apply v38 _ (0 : Fin 1) d

end Cert.KernelIdeal.Payload

end
-- ==== Proof.Accum.lean ====
/-
  The accumulator across the grid.  The eight steps of a run (one token half of one expert, the hidden tiles in order)
  leave in the accumulator zero plus the first tile's product, then that plus the second tile's, and so on: after the
  step at offset j of its run the accumulator's entry is 0 + the sum of the products of tiles 0 … j.  The last step of
  the run also writes the output block: the accumulator's entry plus the bias row's.
-/
import proofs.«142608_j50216757625283_2_alg».proof.Proof.Gen.KernelIdeal.Frame
import proofs.«142608_j50216757625283_2_alg».proof.Proof.Pieces
import proofs.«142608_j50216757625283_2_alg».proof.Proof.Payload
import Idealize.ShloMosaic.Lib.Pipeline.Value

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Payload Idealize.ShloMosaic.ValueIdx
open scoped BigOperators

variable (m : (ℓ : Loc nD τ sig) → Buf (Elt Ideal) ℓ)

/-- One step's effect on the accumulator, over blocks given as plain arrays. -/
def stepOf (x0 : FVec Ideal S1x1024x1024 .bf16) (x1 : FVec Ideal S1x1024x512 .bf16) (x2 : FVec Ideal S1x1x512 .f32)
    (x3 : FVec Ideal S1x512x1024 .bf16) (acc : FVec Ideal S1024x1024 .f32) : FVec Ideal S1024x1024 .f32 :=
  k0_pay1 (k0_pay4 x0 x1 x2 x3 acc)

theorem stepOf_apply (x0 : FVec Ideal S1x1024x1024 .bf16) (x1 : FVec Ideal S1x1024x512 .bf16) (x2 : FVec Ideal S1x1x512 .f32)
    (x3 : FVec Ideal S1x512x1024 .bf16) (acc : FVec Ideal S1024x1024 .f32) (r d : Fin 1024) :
    stepOf x0 x1 x2 x3 acc (ix2 r d) = acc (ix2 r d) + bsum x0 x1 x2 x3 r d := by
  unfold stepOf
  rw [pay1_eq, pay4_apply]

/-- The accumulator's contents after step n. -/
def accAfter (c : Dev nD) (n : ℕ) (h : n < cfg0.N) : FVec Ideal S1024x1024 .f32 := (outsAt0 m c n h).2

/-- What the first step of a run leaves: the step applied to zeros. -/
def resetVal (c : Dev nD) (n : ℕ) (h : n < cfg0.N) : FVec Ideal S1024x1024 .f32 :=
  stepOf (iblk m c 0 ⟨n, h⟩) (iblk m c 1 ⟨n, h⟩) (iblk m c 2 ⟨n, h⟩) (iblk m c 3 ⟨n, h⟩) (k0_pay3 (F := Ideal))

/-- What a later step leaves: the step applied to what it found. -/
def stepVal (c : Dev nD) (n : ℕ) (h : n < cfg0.N) (acc : FVec Ideal S1024x1024 .f32) : FVec Ideal S1024x1024 .f32 :=
  stepOf (iblk m c 0 ⟨n, h⟩) (iblk m c 1 ⟨n, h⟩) (iblk m c 2 ⟨n, h⟩) (iblk m c 3 ⟨n, h⟩) acc

/-- Step n's tile product at an entry (zero past the grid, where it is never used). -/
def addend (c : Dev nD) (n : ℕ) (y : S1024x1024.Idx) : EReal :=
  if h : n < cfg0.N then bsum (iblk m c 0 ⟨n, h⟩) (iblk m c 1 ⟨n, h⟩) (iblk m c 2 ⟨n, h⟩) (iblk m c 3 ⟨n, h⟩) (y 0) (y 1) else 0

theorem acc_reset (c : Dev nD) (n : ℕ) (h : n < cfg0.N) (h0 : n % 8 = 0) : accAfter m c n h = resetVal m c n h := by
  have h1 : ¬n % 8 = 7 := by omega
  unfold accAfter resetVal stepOf
  rw [outsAt0_A m c ⟨n, h⟩ h0 h1]
  dsimp only
  exact Cert.KernelIdeal.Pieces.scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _)
    ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩)

theorem acc_step (c : Dev nD) (n : ℕ) (h : n + 1 < cfg0.N) (h0 : ¬(n + 1) % 8 = 0) :
    accAfter m c (n + 1) h = stepVal m c (n + 1) h (accAfter m c n (Nat.lt_of_succ_lt h)) := by
  unfold accAfter stepVal stepOf
  by_cases h1 : (n + 1) % 8 = 7
  · rw [outsAt0_C m c ⟨n + 1, h⟩ h0 h1]
    dsimp only
    exact Cert.KernelIdeal.Pieces.scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _)
      (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩)
      (outsAt0 m c n (Nat.lt_of_succ_lt h)).2
  · rw [outsAt0_B m c ⟨n + 1, h⟩ h0 h1]
    dsimp only
    exact Cert.KernelIdeal.Pieces.scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _)
      (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩)
      (outsAt0 m c n (Nat.lt_of_succ_lt h)).2

theorem resetVal_apply (c : Dev nD) (n : ℕ) (h : n < cfg0.N) (i : S1024x1024.Idx) :
    resetVal m c n h i = 0 + addend m c n i := by
  obtain ⟨r, d, rfl⟩ : ∃ (r d : Fin 1024), i = ix2 r d := ⟨i 0, i 1, eq_ix2 i⟩
  unfold addend resetVal
  rw [dif_pos h]
  refine (stepOf_apply (iblk m c 0 ⟨n, h⟩) (iblk m c 1 ⟨n, h⟩) (iblk m c 2 ⟨n, h⟩) (iblk m c 3 ⟨n, h⟩) (k0_pay3 (F := Ideal)) r d).trans ?_
  rw [pay3_apply]

theorem stepVal_apply (c : Dev nD) (n : ℕ) (h : n < cfg0.N) (acc : FVec Ideal S1024x1024 .f32) (i : S1024x1024.Idx) :
    stepVal m c n h acc i = acc i + addend m c n i := by
  obtain ⟨r, d, rfl⟩ : ∃ (r d : Fin 1024), i = ix2 r d := ⟨i 0, i 1, eq_ix2 i⟩
  unfold addend stepVal
  rw [dif_pos h]
  exact stepOf_apply (iblk m c 0 ⟨n, h⟩) (iblk m c 1 ⟨n, h⟩) (iblk m c 2 ⟨n, h⟩) (iblk m c 3 ⟨n, h⟩) acc r d

/-- After step t the accumulator's entry is zero plus the products of its run's tiles up to t's. -/
theorem acc_fold (c : Dev nD) (t : ℕ) (ht : t < cfg0.N) (y : S1024x1024.Idx) :
    accAfter m c t ht y = 0 + ∑ s ∈ Finset.range (t % 8 + 1), addend m c (8 * (t / 8) + s) y := by
  have h' : 8 * (t / 8) + t % 8 < cfg0.N := by rw [Nat.div_add_mod]; exact ht
  rw [Pipeline.eq_accAt_of_mod (accAfter m c) 8 (resetVal m c) (stepVal m c) (acc_reset m c) (acc_step m c) (by norm_num) t ht h']
  exact Pipeline.accAt_add_apply (resetVal m c) (stepVal m c) (fun _ => 0) (addend m c) (8 * (t / 8)) 7
    (fun h i => resetVal_apply m c _ h i) (fun n h acc i _ _ => stepVal_apply m c n h acc i) (t % 8) (by omega) h' y

/-- The last step of a run leaves in the output block the accumulator it leaves, plus the bias row. -/
theorem out_flush (c : Dev nD) (t : Fin cfg0.N) (h7 : t.val % 8 = 7) :
    (outsAt0 m c t.val t.isLt).1 = k0_pay2 (accAfter m c t.val t.isLt) (iblk m c 4 t) := by
  have h0 : ¬t.val % 8 = 0 := by omega
  have e2 : accAfter m c t.val t.isLt
      = k0_pay1 (k0_pay4 (iblk m c 0 t) (iblk m c 1 t) (iblk m c 2 t) (iblk m c 3 t) (outsAt0 m c (t.val - 1) (Nat.lt_of_le_of_lt (Nat.sub_le _ _) t.isLt)).2) := by
    unfold accAfter
    rw [outsAt0_C m c t h0 h7]
    dsimp only
    exact Cert.KernelIdeal.Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (fun hh => h0 ((hcond0_0 t).mp hh)) ((hcond0_1 t).mpr h7) (iblk m c 0 t) (iblk m c 1 t) (iblk m c 2 t) (iblk m c 3 t) (iblk m c 4 t)
      (outsAt0 m c (t.val - 1) (Nat.lt_of_le_of_lt (Nat.sub_le _ _) t.isLt)).2
  rw [e2, outsAt0_C m c t h0 h7]
  dsimp only
  exact Cert.KernelIdeal.Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (fun hh => h0 ((hcond0_0 t).mp hh)) ((hcond0_1 t).mpr h7) (iblk m c 0 t) (iblk m c 1 t) (iblk m c 2 t) (iblk m c 3 t) (iblk m c 4 t)
    (outsAt0 m c (t.val - 1) (Nat.lt_of_le_of_lt (Nat.sub_le _ _) t.isLt)).2

/-- The output block's entry at the last step of a run. -/
theorem out_entry (c : Dev nD) (t : Fin cfg0.N) (h7 : t.val % 8 = 7) (r d : Fin 1024) :
    (outsAt0 m c t.val t.isLt).1 (ix3 (0 : Fin 1) r d)
      = (0 + ∑ s ∈ Finset.range 8, addend m c (8 * (t.val / 8) + s) (ix2 r d)) + iblk m c 4 t (ix3 (0 : Fin 1) (0 : Fin 1) d) := by
  rw [out_flush m c t h7]
  refine (pay2_apply (accAfter m c t.val t.isLt) (iblk m c 4 t) r d).trans ?_
  rw [acc_fold m c t.val t.isLt (ix2 r d), h7]

end Cert.KernelIdeal.Accum

end
-- ==== Proof.Blocks.lean ====
/-
  The blocks the grid steps read, as entries of the arrays.  Grid step t = 16·e + 8·h + s works for expert e on the
  token half h (1024 of the expert's 2048 tokens) and the hidden tile s (512 of the 4096 hidden units).  Its input
  block is rows h·1024 … h·1024 + 1023 of expert e's tokens; its first-layer weight block and bias block are columns
  s·512 … s·512 + 511 of expert e's; its second-layer weight block is rows s·512 … of expert e's; its output bias block
  is expert e's row.  Before the grid starts the host has re-grouped the token rows by expert, narrowed the three
  matrix operands to 16 bits (the identity on the extended reals) and given both bias arrays a unit middle axis.
-/
import proofs.«142608_j50216757625283_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-! ## Where each window's block sits, decided once over the grid -/

theorem idx0 : ∀ t : Fin cfg0.N, win0_0.index t 0 = t.val / 16 ∧ win0_0.index t 1 = t.val / 8 % 2 ∧ win0_0.index t 2 = 0 :=
  (by decide +kernel : ∀ t : Fin grid0.N, _)
theorem idx1 : ∀ t : Fin cfg0.N, win0_1.index t 0 = t.val / 16 ∧ win0_1.index t 1 = 0 ∧ win0_1.index t 2 = t.val % 8 :=
  (by decide +kernel : ∀ t : Fin grid0.N, _)
theorem idx2 : ∀ t : Fin cfg0.N, win0_2.index t 0 = t.val / 16 ∧ win0_2.index t 1 = 0 ∧ win0_2.index t 2 = t.val % 8 :=
  (by decide +kernel : ∀ t : Fin grid0.N, _)
theorem idx3 : ∀ t : Fin cfg0.N, win0_3.index t 0 = t.val / 16 ∧ win0_3.index t 1 = t.val % 8 ∧ win0_3.index t 2 = 0 :=
  (by decide +kernel : ∀ t : Fin grid0.N, _)
theorem idx4 : ∀ t : Fin cfg0.N, win0_4.index t 0 = t.val / 16 ∧ win0_4.index t 1 = 0 ∧ win0_4.index t 2 = 0 :=
  (by decide +kernel : ∀ t : Fin grid0.N, _)
theorem idx5 : ∀ t : Fin cfg0.N, win0_5.index t 0 = t.val / 16 ∧ win0_5.index t 1 = t.val / 8 % 2 ∧ win0_5.index t 2 = 0 :=
  (by decide +kernel : ∀ t : Fin grid0.N, _)

/-! ## The input blocks at an entry -/

/-- The token block: row r of the block is token h·1024 + r of expert e. -/
theorem iblk0_apply (c : Dev nD) (t : Fin cfg0.N) (r k : Fin 1024) (e : Fin 8) (q : Fin 2048)
    (he : e.val = t.val / 16) (hq : q.val = t.val / 8 % 2 * 1024 + r.val) :
    (iblk m c 0 t : Vec F S1x1024x1024 .bf16) (ix3 (0 : Fin 1) r k) = (V m c main_v1 : Vec F S8x2048x1024 .bf16) (ix3 e q k) := by
  unfold iblk
  rw [View.read_apply]
  show V m c main_v1 (((cfg0.win 0).blk t).view.emb (ix3 (0 : Fin 1) r k)) = V m c main_v1 (ix3 e q k)
  refine congrArg (V m c main_v1) (funext fun a => Fin.ext ?_)
  match a with
  | ⟨0, _⟩ => show win0_0.index t 0 * 1 + 1 * 0 = e.val; rw [(idx0 t).1]; omega
  | ⟨1, _⟩ => show win0_0.index t 1 * 1024 + 1 * r.val = q.val; rw [(idx0 t).2.1]; omega
  | ⟨2, _⟩ => show win0_0.index t 2 * 1024 + 1 * k.val = k.val; rw [(idx0 t).2.2]; omega

/-- The first-layer weight block: column j of the block is hidden unit s·512 + j. -/
theorem iblk1_apply (c : Dev nD) (t : Fin cfg0.N) (k : Fin 1024) (j : Fin 512) (e : Fin 8) (f : Fin 4096)
    (he : e.val = t.val / 16) (hf : f.val = t.val % 8 * 512 + j.val) :
    (iblk m c 1 t : Vec F S1x1024x512 .bf16) (ix3 (0 : Fin 1) k j) = (V m c main_v2 : Vec F S8x1024x4096 .bf16) (ix3 e k f) := by
  unfold iblk
  rw [View.read_apply]
  show V m c main_v2 (((cfg0.win 1).blk t).view.emb (ix3 (0 : Fin 1) k j)) = V m c main_v2 (ix3 e k f)
  refine congrArg (V m c main_v2) (funext fun a => Fin.ext ?_)
  match a with
  | ⟨0, _⟩ => show win0_1.index t 0 * 1 + 1 * 0 = e.val; rw [(idx1 t).1]; omega
  | ⟨1, _⟩ => show win0_1.index t 1 * 1024 + 1 * k.val = k.val; rw [(idx1 t).2.1]; omega
  | ⟨2, _⟩ => show win0_1.index t 2 * 512 + 1 * j.val = f.val; rw [(idx1 t).2.2]; omega

/-- The first-layer bias block. -/
theorem iblk2_apply (c : Dev nD) (t : Fin cfg0.N) (j : Fin 512) (e : Fin 8) (f : Fin 4096)
    (he : e.val = t.val / 16) (hf : f.val = t.val % 8 * 512 + j.val) :
    (iblk m c 2 t : Vec F S1x1x512 .f32) (ix3 (0 : Fin 1) (0 : Fin 1) j) = (V m c main_v4 : Vec F S8x1x4096 .f32) (ix3 e (0 : Fin 1) f) := by
  unfold iblk
  rw [View.read_apply]
  show V m c main_v4 (((cfg0.win 2).blk t).view.emb (ix3 (0 : Fin 1) (0 : Fin 1) j)) = V m c main_v4 (ix3 e (0 : Fin 1) f)
  refine congrArg (V m c main_v4) (funext fun a => Fin.ext ?_)
  match a with
  | ⟨0, _⟩ => show win0_2.index t 0 * 1 + 1 * 0 = e.val; rw [(idx2 t).1]; omega
  | ⟨1, _⟩ => show win0_2.index t 1 * 1 + 1 * 0 = 0; rw [(idx2 t).2.1]
  | ⟨2, _⟩ => show win0_2.index t 2 * 512 + 1 * j.val = f.val; rw [(idx2 t).2.2]; omega

/-- The second-layer weight block: row j of the block is hidden unit s·512 + j. -/
theorem iblk3_apply (c : Dev nD) (t : Fin cfg0.N) (j : Fin 512) (d : Fin 1024) (e : Fin 8) (f : Fin 4096)
    (he : e.val = t.val / 16) (hf : f.val = t.val % 8 * 512 + j.val) :
    (iblk m c 3 t : Vec F S1x512x1024 .bf16) (ix3 (0 : Fin 1) j d) = (V m c main_v3 : Vec F S8x4096x1024 .bf16) (ix3 e f d) := by
  unfold iblk
  rw [View.read_apply]
  show V m c main_v3 (((cfg0.win 3).blk t).view.emb (ix3 (0 : Fin 1) j d)) = V m c main_v3 (ix3 e f d)
  refine congrArg (V m c main_v3) (funext fun a => Fin.ext ?_)
  match a with
  | ⟨0, _⟩ => show win0_3.index t 0 * 1 + 1 * 0 = e.val; rw [(idx3 t).1]; omega
  | ⟨1, _⟩ => show win0_3.index t 1 * 512 + 1 * j.val = f.val; rw [(idx3 t).2.1]; omega
  | ⟨2, _⟩ => show win0_3.index t 2 * 1024 + 1 * d.val = d.val; rw [(idx3 t).2.2]; omega

/-- The output bias block. -/
theorem iblk4_apply (c : Dev nD) (t : Fin cfg0.N) (d : Fin 1024) (e : Fin 8) (he : e.val = t.val / 16) :
    (iblk m c 4 t : Vec F S1x1x1024 .f32) (ix3 (0 : Fin 1) (0 : Fin 1) d) = (V m c main_v5 : Vec F S8x1x1024 .f32) (ix3 e (0 : Fin 1) d) := by
  unfold iblk
  rw [View.read_apply]
  show V m c main_v5 (((cfg0.win 4).blk t).view.emb (ix3 (0 : Fin 1) (0 : Fin 1) d)) = V m c main_v5 (ix3 e (0 : Fin 1) d)
  refine congrArg (V m c main_v5) (funext fun a => Fin.ext ?_)
  match a with
  | ⟨0, _⟩ => show win0_4.index t 0 * 1 + 1 * 0 = e.val; rw [(idx4 t).1]; omega
  | ⟨1, _⟩ => show win0_4.index t 1 * 1 + 1 * 0 = 0; rw [(idx4 t).2.1]
  | ⟨2, _⟩ => show win0_4.index t 2 * 1024 + 1 * d.val = d.val; rw [(idx4 t).2.2]; omega

/-! ## The arrays the grid finds, from the program's arguments -/

theorem V_v1 (c : Dev nD) : (V m c main_v1 : Vec F S8x2048x1024 .bf16)
    = truncf .bf16 (shapeCast S8x2048x1024 (m ((c : Thread nD τ).loc main_arg0)) shapeCasts_S16384x1024_S8x2048x1024) bitsLt_bf16_f32 := by
  show StableHlo.after hostOps0 (fun b => m (c, b)) (Proc.devRef .tc main_v1) = _
  after_results
  rfl

theorem V_v2 (c : Dev nD) : (V m c main_v2 : Vec F S8x1024x4096 .bf16)
    = truncf .bf16 (m ((c : Thread nD τ).loc main_arg2)) bitsLt_bf16_f32 := by
  show StableHlo.after hostOps0 (fun b => m (c, b)) (Proc.devRef .tc main_v2) = _
  after_results

theorem V_v3 (c : Dev nD) : (V m c main_v3 : Vec F S8x4096x1024 .bf16)
    = truncf .bf16 (m ((c : Thread nD τ).loc main_arg4)) bitsLt_bf16_f32 := by
  show StableHlo.after hostOps0 (fun b => m (c, b)) (Proc.devRef .tc main_v3) = _
  after_results

theorem V_v4 (c : Dev nD) : (V m c main_v4 : Vec F S8x1x4096 .f32)
    = shapeCast S8x1x4096 (m ((c : Thread nD τ).loc main_arg3)) shapeCasts_S8x4096_S8x1x4096 := by
  show StableHlo.after hostOps0 (fun b => m (c, b)) (Proc.devRef .tc main_v4) = _
  after_results
  rfl

theorem V_v5 (c : Dev nD) : (V m c main_v5 : Vec F S8x1x1024 .f32)
    = shapeCast S8x1x1024 (m ((c : Thread nD τ).loc main_arg5)) shapeCasts_S8x1024_S8x1x1024 := by
  show StableHlo.after hostOps0 (fun b => m (c, b)) (Proc.devRef .tc main_v5) = _
  after_results
  rfl

/-- A bias array with a unit middle axis reads, at (e, 0, f), the array at (e, f). -/
theorem midUnit_apply {α : Type} {a b : ℕ} (x : (⟨2, ![a, b]⟩ : Shape).Idx → α)
    (h : (⟨2, ![a, b]⟩ : Shape).ShapeCasts ⟨3, ![a, 1, b]⟩) (e : Fin a) (f : Fin b) :
    shapeCast ⟨3, ![a, 1, b]⟩ x h (ix3 e (0 : Fin 1) f) = x (ix2 e f) :=
  shapeCast_apply x h _ _ (by
    rw [Shape.rowMajor_val_three, Shape.rowMajor_val_two]
    show e.val * b + f.val = (e.val * 1 + 0) * b + f.val
    rw [Nat.mul_one, Nat.add_zero])

end Cert.KernelIdeal.Blocks

end
-- ==== Proof.Tiles.lean ====
/-
  One grid step's tile product is the specification's.  With the blocks read as entries of the arrays, the hidden units
  of row r at step t = 16·e + 8·h + s are the specification's hidden units of token h·1024 + r of expert e at the units
  s·512 + j of tile s, and the tile's product at column d is the specification's tile sum.
-/
import proofs.«142608_j50216757625283_2_alg».proof.Proof.Blocks
import proofs.«142608_j50216757625283_2_alg».proof.Proof.Payload
import proofs.«142608_j50216757625283_2_alg».proof.Proof.Spec

noncomputable section

open Idealize.ShloMosaic Idealize.ShloMosaic.TcCoe Idealize.SL.Sem

namespace Cert.KernelIdeal.Tiles

open Cert.KernelIdeal Cert.KernelIdeal.Gen Cert.KernelIdeal.Payload Cert.KernelIdeal.Blocks Idealize.ShloMosaic.ValueIdx
open scoped BigOperators

variable (m : (ℓ : Loc nD τ sig) → Buf (Elt Ideal) ℓ)

/-- The program's arguments as the specification's arrays: the tokens with their rows grouped by expert, and the four
    parameter arrays as given. -/
def X3 (c : Dev nD) : Cert.Spec.SX3.Idx → EReal :=
  shapeCast S8x2048x1024 (m ((c : Thread nD τ).loc main_arg0)) shapeCasts_S16384x1024_S8x2048x1024
def W1 (c : Dev nD) : Cert.Spec.SW1.Idx → EReal := m ((c : Thread nD τ).loc main_arg2)
def B1 (c : Dev nD) : Cert.Spec.SB1.Idx → EReal := m ((c : Thread nD τ).loc main_arg3)
def W2 (c : Dev nD) : Cert.Spec.SW2.Idx → EReal := m ((c : Thread nD τ).loc main_arg4)
def B2 (c : Dev nD) : Cert.Spec.SB2.Idx → EReal := m ((c : Thread nD τ).loc main_arg5)

/-- A hidden unit of a block row is the specification's hidden unit. -/
theorem bpre_blocks (c : Dev nD) (t : Fin cfg0.N) (r : Fin 1024) (j : Fin 512) (e : Fin 8) (tok : Fin 2048) (f : Fin 4096)
    (he : e.val = t.val / 16) (htok : tok.val = t.val / 8 % 2 * 1024 + r.val) (hf : f.val = t.val % 8 * 512 + j.val) :
    bpre (iblk m c 0 t) (iblk m c 1 t) (iblk m c 2 t) r j = Cert.Spec.pre (X3 m c) (W1 m c) (B1 m c) e tok f := by
  unfold bpre Cert.Spec.pre
  refine congrArg₂ (· + ·) (Finset.sum_congr rfl fun k _ => congrArg₂ (· * ·) ?_ ?_) ?_
  · exact (iblk0_apply m c t r k e tok he htok).trans (congrFun (V_v1 m c) _)
  · exact (iblk1_apply m c t k j e f he hf).trans (congrFun (V_v2 m c) _)
  · exact ((iblk2_apply m c t j e f he hf).trans (congrFun (V_v4 m c) _)).trans
      (midUnit_apply (m ((c : Thread nD τ).loc main_arg3)) shapeCasts_S8x4096_S8x1x4096 e f)

/-- A step's tile product is the specification's tile sum. -/
theorem bsum_blocks (c : Dev nD) (t : Fin cfg0.N) (r d : Fin 1024) (e : Fin 8) (tok : Fin 2048) (s : Fin 8)
    (he : e.val = t.val / 16) (htok : tok.val = t.val / 8 % 2 * 1024 + r.val) (hs : s.val = t.val % 8) :
    bsum (iblk m c 0 t) (iblk m c 1 t) (iblk m c 2 t) (iblk m c 3 t) r d
      = Cert.Spec.tileSum (X3 m c) (W1 m c) (B1 m c) (W2 m c) e tok d s := by
  unfold bsum Cert.Spec.tileSum Cert.Spec.term
  refine Finset.sum_congr rfl fun j _ => ?_
  have hf : (Cert.Spec.tileCol s j).val = t.val % 8 * 512 + j.val := by rw [Cert.Spec.tileCol_val, hs]
  refine congrArg₂ (· * ·) (congrArg Cert.Spec.gelu (bpre_blocks m c t r j e tok _ he htok hf)) ?_
  exact (iblk3_apply m c t j d e _ he hf).trans (congrFun (V_v3 m c) _)

/-- The bias row of a step's output block is the specification's bias entry. -/
theorem bias_blocks (c : Dev nD) (t : Fin cfg0.N) (d : Fin 1024) (e : Fin 8) (he : e.val = t.val / 16) :
    (iblk m c 4 t : Vec Ideal S1x1x1024 .f32) (ix3 (0 : Fin 1) (0 : Fin 1) d) = B2 m c (ix2 e d) :=
  ((iblk4_apply m c t d e he).trans (congrFun (V_v5 m c) _)).trans
    (midUnit_apply (m ((c : Thread nD τ).loc main_arg5)) shapeCasts_S8x1024_S8x1x1024 e d)

end Cert.KernelIdeal.Tiles

end
-- ==== Proof.Final.lean ====
/-
  The kernel's result.  The output blocks are written back only by the last step of each run, and those sixteen blocks
  (eight experts × two token halves) tile the [8, 2048, 1024] output array.  The block written by step t = 16·e + 8·h + 7
  holds, at (r, d), zero plus the eight tile sums plus the bias — the specification's value for token h·1024 + r of
  expert e at column d.  So the array ends holding the specification's function, and the program's result is that array
  with its rows un-grouped, the one host line after the grid.
-/
import proofs.«142608_j50216757625283_2_alg».proof.Proof.Accum
import proofs.«142608_j50216757625283_2_alg».proof.Proof.Tiles

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Accum Cert.KernelIdeal.Tiles Cert.KernelIdeal.Blocks
open Idealize.ShloMosaic.ValueIdx
open scoped BigOperators

variable (m : (ℓ : Loc nD τ sig) → Buf (Elt Ideal) ℓ) (ρ : Dev nD → PrngReg)

/-- The specification's function of this program's arguments, as contents of the output array. -/
def GK (c : Dev nD) : Buf (Elt Ideal) ((c : Thread nD τ).loc main_v6) :=
  Cert.Spec.G3 (X3 m c) (W1 m c) (B1 m c) (W2 m c) (B2 m c)

/-- The entry (r, d) of the block the last step of a run writes back. -/
theorem flushed_apply (c : Dev nD) (t : Fin cfg0.N) (h7 : t.val % 8 = 7) (r d : Fin 1024) (e : Fin 8) (tok : Fin 2048)
    (he : e.val = t.val / 16) (htok : tok.val = t.val / 8 % 2 * 1024 + r.val) :
    (outsAt0 m c t.val t.isLt).1 (ix3 (0 : Fin 1) r d) = GK m c (ix3 e tok d) := by
  have hN : cfg0.N = 128 := N_0
  have htN : t.val < 128 := lt_of_lt_of_eq t.isLt hN
  rw [out_entry m c t h7 r d]
  unfold GK
  rw [Cert.Spec.G3_tiles, zero_add, Finset.sum_range]
  refine congrArg₂ (· + ·) (Finset.sum_congr rfl fun s _ => ?_) (bias_blocks m c t d e he)
  have hs8 : s.val < 8 := s.isLt
  have hlt : 8 * (t.val / 8) + s.val < cfg0.N := lt_of_lt_of_eq (by omega : 8 * (t.val / 8) + s.val < 128) hN.symm
  unfold addend
  rw [dif_pos hlt]
  exact bsum_blocks m c ⟨8 * (t.val / 8) + s.val, hlt⟩ r d e tok s (by show e.val = (8 * (t.val / 8) + s.val) / 16; omega)
    (by show tok.val = (8 * (t.val / 8) + s.val) / 8 % 2 * 1024 + r.val; omega) (by show s.val = (8 * (t.val / 8) + s.val) % 8; omega)

/-- What a write-back writes is its block of the specification's function. -/
theorem flushed_eq (c : Dev nD) (t : Fin cfg0.N) (hf : (cfg0.win 5).flush t = true) :
    (dats m 0 c).flushed 5 t = ((cfg0.win 5).blk t).view.read (Elt Ideal) (GK m c) := by
  have h7 : t.val % 8 = 7 := (flush0_5 t).mp hf
  have hN : cfg0.N = 128 := N_0
  have htN : t.val < 128 := lt_of_lt_of_eq t.isLt hN
  show (cfg0.win 5).cut (grid0.coords t) ((dats m 0 c).after 5 t) = _
  rw [after0_5]
  refine funext fun (y : S1x1024x1024.Idx) => ?_
  obtain ⟨r, d, rfl⟩ : ∃ (r d : Fin 1024), y = ix3 (0 : Fin 1) r d :=
    ⟨y 1, y 2, funext fun a => by
      match a with
      | ⟨0, _⟩ => exact Fin.ext (Nat.lt_one_iff.mp (y 0).isLt)
      | ⟨1, _⟩ => rfl
      | ⟨2, _⟩ => rfl⟩
  rw [View.read_apply]
  refine (flushed_apply m c t h7 r d ⟨t.val / 16, by omega⟩ ⟨t.val / 8 % 2 * 1024 + r.val, by have := r.isLt; omega⟩ rfl rfl).trans ?_
  refine congrArg (GK m c) (funext fun a => Fin.ext ?_)
  match a with
  | ⟨0, _⟩ => show t.val / 16 = win0_5.index t 0 * 1 + 1 * 0; rw [(idx5 t).1]; omega
  | ⟨1, _⟩ => show t.val / 8 % 2 * 1024 + r.val = win0_5.index t 1 * 1024 + 1 * r.val; rw [(idx5 t).2.1]; omega
  | ⟨2, _⟩ => show d.val = win0_5.index t 2 * 1024 + 1 * d.val; rw [(idx5 t).2.2]; omega

/-- An index of the output array is in step t's block iff each coordinate is in the block's range. -/
theorem mem_blk (t : Fin cfg0.N) (i : S8x2048x1024.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v6).slice (win0_5.rect t)).set ↔ _
  rw [View.set_slice_whole, Rect.mem_set_unit]
  exact Iff.rfl

/-- Every entry of the output array lies in the block of the last step of its run. -/
theorem cover (i : S8x2048x1024.Idx) :
    ∃ t : Fin cfg0.N, (cfg0.win 5).flush t = true ∧ i ∈ ((cfg0.win 5).blk t).view.set := by
  have hN : cfg0.N = 128 := N_0
  have h0 : (i 0).val < 8 := (i 0).isLt
  have h1 : (i 1).val < 2048 := (i 1).isLt
  have h2 : (i 2).val < 1024 := (i 2).isLt
  have hlt : 16 * (i 0).val + 8 * ((i 1).val / 1024) + 7 < cfg0.N :=
    lt_of_lt_of_eq (by omega : 16 * (i 0).val + 8 * ((i 1).val / 1024) + 7 < 128) hN.symm
  refine ⟨⟨16 * (i 0).val + 8 * ((i 1).val / 1024) + 7, hlt⟩, (flush0_5 _).mpr (by show (16 * (i 0).val + 8 * ((i 1).val / 1024) + 7) % 8 = 7; omega), ?_⟩
  rw [mem_blk]
  obtain ⟨e0, e1, e2⟩ := idx5 ⟨16 * (i 0).val + 8 * ((i 1).val / 1024) + 7, hlt⟩
  have e0' : win0_5.index ⟨16 * (i 0).val + 8 * ((i 1).val / 1024) + 7, hlt⟩ 0 = (16 * (i 0).val + 8 * ((i 1).val / 1024) + 7) / 16 := e0
  have e1' : win0_5.index ⟨16 * (i 0).val + 8 * ((i 1).val / 1024) + 7, hlt⟩ 1 = (16 * (i 0).val + 8 * ((i 1).val / 1024) + 7) / 8 % 2 := e1
  intro a
  match a with
  | ⟨0, _⟩ => show win0_5.index _ 0 * 1 ≤ (i 0).val ∧ (i 0).val < win0_5.index _ 0 * 1 + 1; rw [e0']; omega
  | ⟨1, _⟩ => show win0_5.index _ 1 * 1024 ≤ (i 1).val ∧ (i 1).val < win0_5.index _ 1 * 1024 + 1024; rw [e1']; omega
  | ⟨2, _⟩ => show win0_5.index _ 2 * 1024 ≤ (i 2).val ∧ (i 2).val < win0_5.index _ 2 * 1024 + 1024; rw [e2]; omega

/-- So the output array ends holding the specification's function. -/
theorem final (c : Dev nD) : (dats m 0 c).arrAt 5 cfg0.N = GK m c :=
  (dats m 0 c).arrAt_eq_of_cover 5 (GK m c) (flushed_eq m c) cover

/-- The program's result: the specification's function with its rows un-grouped. -/
def result (c : Dev nD) : Buf (Elt Ideal) ((c : Thread nD τ).loc main_v7) :=
  shapeCast S16384x1024 (GK m c) shapeCasts_S8x2048x1024_S16384x1024

/-- The host line after the grid re-groups the rows of what the grid left. -/
theorem tail_eq (c : Dev nD) :
    Pipeline.afterTail₀ cfgs (dats m) 0 (V0 m) [hostOps1] c main_v7 = result m c := by
  unfold Pipeline.afterTail₀ result
  show StableHlo.after hostOps1 _ (Proc.devRef .tc main_v7) = _
  after_results
  have hw : Pipeline.withArrays (cfgs 0).spec c (V0 m c) (fun w => (dats m 0 c).arrAt w (cfgs 0).N) (Proc.tc.devRef main_v6) = GK m c :=
    (Pipeline.withArrays_arr spec0 launch0.win.arr_inj c _ _ 5).trans (final m c)
  rw [hw]
  rfl

/-- The run, read: the result at the specification's function with its rows un-grouped, the arguments unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Final

end
-- ==== Proof.lean ====
/-
  A mixture-of-experts feed-forward layer with equal expert sizes, against its batched-matrix-product reference, on the
  extended reals.  Both programs group the 16384 token rows by expert (8 × 2048), and for each token compute
  Σ_f gelu(Σ_k x_k·w1(k,f) + b1(f))·w2(f,d) + b2(d) with the tanh-approximate GELU and the same four float constants.  The
  kernel walks a grid of (expert, token half, hidden tile): each step adds one 512-unit tile's product into an
  accumulator that the first step of a run zeroes, and the last step of a run adds the bias and writes the output block.
  The reference contracts over all 4096 hidden units at once.  The two agree because a finite sum may be regrouped into
  eight consecutive tiles and summed tile by tile, zero is neutral, a cube may be bracketed either way, and narrowing to
  16 bits is the identity on the extended reals; no finiteness of the inputs is used.  The idealized kernel is the kernel's
  own text read on the extended reals, so nothing is owed for the passage between the two.
-/
import proofs.«142608_j50216757625283_2_alg».proof.Defs
import proofs.«142608_j50216757625283_2_alg».proof.Proof.Gen.Kernel
import proofs.«142608_j50216757625283_2_alg».proof.Proof.Gen.Kernel.Skeleton
import proofs.«142608_j50216757625283_2_alg».proof.Proof.Gen.Kernel.Launch
import proofs.«142608_j50216757625283_2_alg».proof.Proof.Gen.Kernel.Points
import proofs.«142608_j50216757625283_2_alg».proof.Proof.Gen.Kernel.Frame
import proofs.«142608_j50216757625283_2_alg».proof.Proof.Gen.KernelIdeal
import proofs.«142608_j50216757625283_2_alg».proof.Proof.Gen.KernelIdeal.Skeleton
import proofs.«142608_j50216757625283_2_alg».proof.Proof.Gen.KernelIdeal.Launch
import proofs.«142608_j50216757625283_2_alg».proof.Proof.Gen.KernelIdeal.Points
import proofs.«142608_j50216757625283_2_alg».proof.Proof.Gen.KernelIdeal.Frame
import proofs.«142608_j50216757625283_2_alg».proof.Proof.Gen.ReferenceIdeal
import proofs.«142608_j50216757625283_2_alg».proof.Proof.Gen.Pre_finite_inputs
import proofs.«142608_j50216757625283_2_alg».proof.Proof.Gen.ReferenceIdeal.Run
import proofs.«142608_j50216757625283_2_alg».proof.Proof.Gen.ReferenceIdeal.Read
import proofs.«142608_j50216757625283_2_alg».proof.Proof.RefSide
import proofs.«142608_j50216757625283_2_alg».proof.Proof.Final
import Idealize.ShloMosaic.Adequacy
import Idealize.ShloMosaic.Init

noncomputable section

namespace Cert.Proof

open Idealize.ShloMosaic Idealize.SL.Sem

/-- The three programs run to the end and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end at the specification's function of arguments that agree, its rows un-grouped. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq, Cert.ReferenceIdeal.RefValue.v22_eq, (hagree c).1, (hagree c).2.2.1,
    (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
